-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S1 : Shape := ⟨1, ![1]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S1 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S1 : Shape := ⟨1, ![1]⟩
abbrev S131072x128 : Shape := ⟨2, ![131072, 128]⟩
abbrev S16x1x128 : Shape := ⟨3, ![16, 1, 128]⟩
abbrev S_ : Shape := ⟨0, ![]⟩
abbrev S8192x128 : Shape := ⟨2, ![8192, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 8
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S1, .i32⟩
  | .hbm, ⟨2, _⟩ => ⟨S131072x128, .f32⟩
  | .hbm, ⟨3, _⟩ => ⟨S131072x128, .f32⟩
  | .hbm, ⟨4, _⟩ => ⟨S16x1x128, .f32⟩
  | .hbm, ⟨5, _⟩ => ⟨S16777216, .f32⟩
  | .hbm, ⟨6, _⟩ => ⟨S_, .f32⟩
  | .hbm, ⟨7, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x128, .f32⟩
  | .local _ .vmem, ⟨5, _⟩ => ⟨S1x1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_v0_0 : Ref sig .tc := ⟨.hbm, 5, rfl⟩
abbrev main_call0_cst : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216_S131072x128 : S16777216.ShapeCasts S131072x128
  shapeCasts_S131072x128_S16777216 : S131072x128.ShapeCasts S16777216
  reducesTo_S16x1x128_S_d0_1_2 : S16x1x128.ReducesTo [0, 1, 2] S_
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_call0_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1_0) S8192x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S1, .i32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Regroup.lean ====
/-
  The arithmetic the two programs differ by, with no program in sight.

  Both results are functions of one array `x` of 16777216 numbers.  Write `σ` for the logistic function
  `σ(x) = 1 / (1 + e^(-x))` on the extended reals.  The first result is `σ(x j)` at every `j`; the second is the
  sum of `σ(x j)²` over all `j`.

  One program takes the sum in one go over the flat array.  The other views the array as 131072 rows of 128, cuts the
  rows into 16 blocks of 8192, adds inside each block down the rows (one partial sum per block and per column), and
  then adds the 16 × 128 partial sums.  Addition of extended reals is commutative and associative, so the two
  groupings agree: this is `sum_blockSum` below, proved for any commutative monoid by re-indexing the rows through
  the bijection (block, row in block) ↦ block · 8192 + row in block and exchanging two finite sums.  Viewing the flat
  array as rows re-indexes by a bijection too (row-major position), which changes no sum (`sum_shapeCast`) and
  cancels when applied there and back (`shapeCast_map_shapeCast`).
-/
import Idealize.ShloMosaic.Lib.ValueIdx

noncomputable section

open scoped BigOperators

namespace Cert.Qubo

open Idealize.ShloMosaic Idealize.ShloMosaic.ValueIdx

/-! ## Sums over index sets of rank 3, and over rows cut into blocks -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `g`, among all 131072 rows: blocks are 8192 consecutive rows. -/
def rowOf (g : Fin 16) (r : Fin 8192) : Fin 131072 :=
  ⟨g.val * 8192 + r.val, by have := g.isLt; have := r.isLt; omega⟩

theorem rowOf_val (g : Fin 16) (r : Fin 8192) : (rowOf g r).val = g.val * 8192 + r.val := rfl

/-- Every row is row `r` of block `g` for exactly one pair: quotient and remainder by 8192. -/
def blockRow : Fin 16 × Fin 8192 ≃ Fin 131072 where
  toFun p := rowOf p.1 p.2
  invFun i := (⟨i.val / 8192, by have := i.isLt; omega⟩, ⟨i.val % 8192, by omega⟩)
  left_inv p := by
    obtain ⟨⟨g, hg⟩, ⟨r, hr⟩⟩ := p
    refine Prod.ext (Fin.ext ?_) (Fin.ext ?_)
    · show (g * 8192 + r) / 8192 = g; omega
    · show (g * 8192 + r) % 8192 = r; omega
  right_inv i := by
    apply Fin.ext
    show i.val / 8192 * 8192 + i.val % 8192 = i.val
    omega

/-- A sum over the rows is the sum over the blocks of the sums over each block's rows. -/
theorem sum_rows {M : Type*} [AddCommMonoid M] (h : Fin 131072 → M) :
    ∑ a, h a = ∑ g : Fin 16, ∑ r : Fin 8192, h (rowOf g r) := by
  rw [← Equiv.sum_comp blockRow h, Fintype.sum_prod_type]
  rfl

/-- The partial sum of block `g` in column `l`: down the block's 8192 rows. -/
def blockSum {M : Type*} [AddCommMonoid M] (f : (⟨2, ![131072, 128]⟩ : Shape).Idx → M) (g : Fin 16) (l : Fin 128) : M :=
  ∑ r : Fin 8192, f (ix2 (rowOf g r) l)

/-- The 16 × 1 × 128 array of partial sums. -/
def partials {M : Type*} [AddCommMonoid M] (f : (⟨2, ![131072, 128]⟩ : Shape).Idx → M) :
    (⟨3, ![16, 1, 128]⟩ : Shape).Idx → M :=
  fun q => blockSum f (q 0) (q 2)

/-- THE REGROUPING: adding all the partial sums is adding everything. -/
theorem sum_blockSum {M : Type*} [AddCommMonoid M] (f : (⟨2, ![131072, 128]⟩ : Shape).Idx → M) :
    ∑ q, partials f q = ∑ i, f i := by
  rw [sum_idx3 (partials f), sum_idx2 f, sum_rows (fun a => ∑ b : Fin 128, f (ix2 a b))]
  refine Finset.sum_congr rfl fun g _ => ?_
  rw [Fin.sum_univ_one]
  show ∑ l : Fin 128, ∑ r : Fin 8192, f (ix2 (rowOf g r) l) = _
  exact Finset.sum_comm

/-! ## Re-laying an array by row-major position -/

/-- Re-laying an array changes no sum over it. -/
theorem sum_shapeCast {M : Type} [AddCommMonoid M] {s t : Shape} (x : s.Idx → M) (h : s.ShapeCasts t) :
    ∑ i, shapeCast t x h i = ∑ j, x j :=
  Equiv.sum_comp (Shape.reshapeEquiv h) x

/-- Re-laying, applying a function to every element, and re-laying back, is applying the function to every element. -/
theorem shapeCast_map_shapeCast {α β : Type} {s t : Shape} (φ : α → β) (x : s.Idx → α) (h : s.ShapeCasts t) (h' : t.ShapeCasts s) :
    shapeCast s (fun i => φ (shapeCast t x h i)) h' = fun j => φ (x j) := by
  funext j
  show φ (x (Shape.reshapeEquiv h (Shape.reshapeEquiv h' j))) = φ (x j)
  rw [Shape.reshapeEquiv_reshapeEquiv, Shape.reshapeEquiv_self]

/-! ## The two results, as functions of the argument array -/

/-- The square of the logistic function. -/
def sqLogistic (x : EReal) : EReal := Ideal.logistic x * Ideal.logistic x

/-- The first result: the logistic function of every entry. -/
def decisions (x : (⟨1, ![16777216]⟩ : Shape).Idx → EReal) : (⟨1, ![16777216]⟩ : Shape).Idx → EReal :=
  fun j => Ideal.logistic (x j)

/-- The second result, a scalar: the sum of the squares of the first. -/
def loss (x : (⟨1, ![16777216]⟩ : Shape).Idx → EReal) : (⟨0, ![]⟩ : Shape).Idx → EReal :=
  fun _ => ∑ j, sqLogistic (x j)

/-- The same scalar taken the blocked way: the flat array viewed as rows, partial sums per block and column, and
    their total. -/
theorem loss_blocked (x : (⟨1, ![16777216]⟩ : Shape).Idx → EReal)
    (h : (⟨1, ![16777216]⟩ : Shape).ShapeCasts ⟨2, ![131072, 128]⟩) :
    ∑ q, partials (fun i => sqLogistic (shapeCast ⟨2, ![131072, 128]⟩ x h i)) q = ∑ j, sqLogistic (x j) := by
  rw [sum_blockSum]
  exact sum_shapeCast (fun j => sqLogistic (x j)) h

end Cert.Qubo

end
-- ==== Proof.Payload.lean ====
/-
  What the kernel body stores, read at an index.

  At a grid point the body loads an 8192 × 128 block `x0` of the input and stores two things.  Into the block of
  the first output it stores the logistic function of every entry of `x0`.  Into the 1 × 1 × 128 block of the second
  output it stores, at column `l`, the sum down the 8192 rows of the squares of those values: the product of the
  stored block with itself, added along the row axis (a sum of extended reals, no order left in it), and the result
  re-laid from 128 to 1 × 128 to 1 × 1 × 128, which moves no element.
-/
import proofs.«138000_j57947698757715_2_alg».proof.Proof.Gen.KernelIdeal.Skeleton
import proofs.«138000_j57947698757715_2_alg».proof.Proof.Regroup
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first store's value: the logistic function of the loaded block, entry by entry (the re-laying of the block
    to its own shape is the identity). -/
theorem stored1 {F : FTy → Type} [FloatOps F] (x0 : Vec F S8192x128 .f32) : k0_pay1 x0 = logistic x0 := by
  show logistic (shapeCast S8192x128 x0 _) = logistic x0
  rw [shapeCast_self]

/-- A sum down the rows of an 8192 × 128 block, read at column `l`, is the sum over the row coordinate. -/
theorem rowsum_apply (v : FVec Ideal S8192x128 .f32) (h : S8192x128.Reduces [0] S128) (hφ : FKind.Formats .f32)
    (hacc : (0x00000000#32 : BitVec 32) = FKind.add.neutral .f32 hφ) (l : Fin 128) :
    multiReduction .add [0] S128 v 0x00000000#32 h hφ hacc (ix1 l) = ∑ r : Fin 8192, v (ix2 r l) := by
  refine (Ideal.multiReduction_add_single v _ h hφ hacc (ix1 l)).trans ?_
  show ∑ r : Fin 8192, v (h.lift (ix1 l) r) = ∑ r : Fin 8192, v (ix2 r l)
  refine Finset.sum_congr rfl fun r _ => congrArg v ?_
  funext a
  apply Fin.ext
  match a with
  | ⟨0, _⟩ => rfl
  | ⟨1, _⟩ => rfl

/-- The second store's value at column `l`: the sum down the block's rows of the squared logistic function. -/
theorem stored2_apply (x0 : Vec Ideal S8192x128 .f32) (a b : Fin 1) (l : Fin 128) :
    k0_pay2 (F := Ideal) x0 (ix3 a b l) = ∑ r : Fin 8192, Cert.Qubo.sqLogistic (x0 (ix2 r l)) := by
  unfold k0_pay2
  rw [stored1]
  dsimp only
  have ha : a.val = 0 := by have := a.isLt; omega
  have hb : b.val = 0 := by have := b.isLt; omega
  rw [shapeCast_apply _ _ (ix3 a b l) (ix2 b l) (by
        rw [Shape.rowMajor_val_two, Shape.rowMajor_val_three]
        show b.val * 128 + l.val = (a.val * 1 + b.val) * 128 + l.val
        rw [ha, hb]),
    shapeCast_apply _ _ (ix2 b l) (ix1 l) (by
        rw [Shape.rowMajor_val_one, Shape.rowMajor_val_two]
        show l.val = b.val * 128 + l.val
        rw [hb]; omega)]
  exact rowsum_apply _ _ _ _ l

end Cert.KernelIdeal.Payload

end
-- ==== Proof.Arrays.lean ====
/-
  The two output arrays of the kernel after the run, each as ONE function of the input rows.

  The grid has 16 points.  Point `t` reads rows `8192·t … 8192·t + 8191` of the 131072 × 128 input, writes the same
  rows of the first output, and writes row `t` of the 16 × 1 × 128 second output.  So what point `t` writes to the
  first output is block `t` of "the logistic function of every entry", and what it writes to the second is block `t`
  of "the partial sums, per block of rows and per column, of the squared logistic function".  The blocks of the 16
  points tile both arrays (row `i` lies in block `i / 8192`), so after the run each array IS that function.
-/
import proofs.«138000_j57947698757715_2_alg».proof.Proof.Gen.KernelIdeal.Frame
import proofs.«138000_j57947698757715_2_alg».proof.Proof.Payload
import Idealize.ShloMosaic.Lib.Pipeline.Value

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first output as a function of the input rows: the logistic function, entry by entry. -/
abbrev logisticRows (X : S131072x128.Idx → Elt Ideal .f32) : S131072x128.Idx → Elt Ideal .f32 :=
  fun i => FloatOps.logistic (F := Ideal) (φ := .f32) (X i)

/-- The second output as a function of the input rows: per block of 8192 rows and per column, the sum of the squared
    logistic function. -/
abbrev partialRows (X : S131072x128.Idx → Elt Ideal .f32) : S16x1x128.Idx → Elt Ideal .f32 :=
  Cert.Qubo.partials (fun i => Cert.Qubo.sqLogistic (X i))

/-- Where point `t`'s blocks sit: block `t` along the rows for all three windows, block 0 along every other axis
    (decided over the 16 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 16 := lt_of_lt_of_eq t.isLt N_0

/-! ## The first output -/

/-- What point `t` writes back to the first output is block `t` of the logistic function of the input rows. -/
theorem flushed1_eq (c : Dev nD) (t : Fin cfg0.N) :
    (dats m 0 c).flushed 1 t = ((cfg0.win 1).blk t).view.read (Elt Ideal) (logisticRows (V m c main_call0_v0)) := by
  show (cfg0.win 1).cut (grid0.coords t) ((dats m 0 c).after 1 t) = _
  rw [after0_1]
  unfold out0_1
  rw [View.canon_unit_zero zeros2]
  simp only [View.ld_unit_zero (S := S8192x128) zeros2]
  rw [Payload.stored1]
  obtain ⟨e0, e1, e2, e3, -, -, -⟩ := block_index t
  funext j
  show logisticRows (V m c main_call0_v0) (((cfg0.win 0).blk t).view.emb j)
    = logisticRows (V m c main_call0_v0) (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  exact congrArg (logisticRows (V m c main_call0_v0)) h0

/-- An index of the first output is in point `t`'s block iff each coordinate is in the block's range on its axis. -/
theorem mem_blk1 (t : Fin cfg0.N) (i : S131072x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_call0_v1_0).slice (win0_1.rect t)).set ↔ _
  rw [View.set_slice_whole, Rect.mem_set_unit]
  exact Iff.rfl

/-- Every row is in the block of the point `row / 8192`. -/
theorem cover1 (i : S131072x128.Idx) :
    ∃ t : Fin cfg0.N, (cfg0.win 1).flush t = true ∧ i ∈ ((cfg0.win 1).blk t).view.set := by
  have hi0 : (i 0).val < 131072 := (i 0).isLt
  have hi1 : (i 1).val < 128 := (i 1).isLt
  have hN : cfg0.N = 16 := N_0
  obtain ⟨t, ht⟩ : ∃ t : Fin cfg0.N, t.val = (i 0).val / 8192 := ⟨⟨(i 0).val / 8192, by rw [hN]; omega⟩, rfl⟩
  obtain ⟨-, -, e2, e3, -, -, -⟩ := block_index t
  refine ⟨t, flush0_1 t, ?_⟩
  rw [mem_blk1]
  intro a
  match a with
  | ⟨0, _⟩ =>
    show win0_1.index t (0 : Fin 2) * 8192 ≤ (i 0).val ∧ (i 0).val < win0_1.index t (0 : Fin 2) * 8192 + 8192
    omega
  | ⟨1, _⟩ =>
    show win0_1.index t (1 : Fin 2) * 128 ≤ (i 1).val ∧ (i 1).val < win0_1.index t (1 : Fin 2) * 128 + 128
    omega

/-- The first output after the run: the logistic function of the input rows. -/
theorem final1 (c : Dev nD) : (dats m 0 c).arrAt 1 cfg0.N = logisticRows (V m c main_call0_v0) :=
  (dats m 0 c).arrAt_eq_of_cover 1 _ (fun t _ => flushed1_eq m c t) cover1

/-! ## The second output -/

/-- One point's partial sums from its block of rows: if the loaded block `x0` is rows `8192·g …` of `X`, the value
    stored at column `l` is the partial sum of block `g` at column `l`. -/
theorem block_partial (X : S131072x128.Idx → Elt Ideal .f32) (x0 : Vec Ideal S8192x128 .f32) (g : Fin 16)
    (hx : ∀ (r : Fin 8192) (l : Fin 128), x0 (ix2 r l) = X (ix2 (Cert.Qubo.rowOf g r) l)) (a b : Fin 1) (l : Fin 128) :
    k0_pay2 (F := Ideal) x0 (ix3 a b l) = partialRows X (ix3 g b l) := by
  rw [Payload.stored2_apply]
  show _ = ∑ r : Fin 8192, Cert.Qubo.sqLogistic (X (ix2 (Cert.Qubo.rowOf g r) l))
  exact Finset.sum_congr rfl fun r _ => congrArg Cert.Qubo.sqLogistic (hx r l)

/-- What point `t` writes back to the second output is block `t` of the partial sums over the input rows. -/
theorem flushed2_eq (c : Dev nD) (t : Fin cfg0.N) :
    (dats m 0 c).flushed 2 t = ((cfg0.win 2).blk t).view.read (Elt Ideal) (partialRows (V m c main_call0_v0)) := by
  show (cfg0.win 2).cut (grid0.coords t) ((dats m 0 c).after 2 t) = _
  rw [after0_2]
  unfold out0_2
  rw [View.canon_unit_zero zeros3]
  simp only [View.ld_unit_zero (S := S8192x128) zeros2]
  obtain ⟨e0, e1, -, -, e4, e5, e6⟩ := block_index t
  refine funext fun (y : S1x1x128.Idx) => ?_
  obtain ⟨a, b, l, rfl⟩ : ∃ (a b : Fin 1) (l : Fin 128), y = ix3 a b l := ⟨y 0, y 1, y 2, eq_ix3 y⟩
  show k0_pay2 (F := Ideal) (iblk m c 0 t) (ix3 a b l)
    = partialRows (V m c main_call0_v0) (((cfg0.win 2).blk t).view.emb (ix3 a b l))
  have ha : a.val = 0 := by have := a.isLt; omega
  refine (block_partial (V m c main_call0_v0) (iblk m c 0 t) ⟨t.val, point_lt t⟩ (fun r l' => ?_) a b l).trans
    (congrArg (partialRows (V m c main_call0_v0)) ?_)
  · show V m c main_call0_v0 (((cfg0.win 0).blk t).view.emb (ix2 r l')) = V m c main_call0_v0 (ix2 (Cert.Qubo.rowOf ⟨t.val, point_lt t⟩ r) l')
    refine congrArg (V m c main_call0_v0) (funext fun d => Fin.ext ?_)
    match d with
    | ⟨0, _⟩ => show win0_0.index t (0 : Fin 2) * 8192 + 1 * r.val = t.val * 8192 + r.val; omega
    | ⟨1, _⟩ => show win0_0.index t (1 : Fin 2) * 128 + 1 * l'.val = l'.val; omega
  · refine funext fun d => Fin.ext ?_
    match d with
    | ⟨0, _⟩ => show t.val = win0_2.index t (0 : Fin 3) * 1 + 1 * a.val; omega
    | ⟨1, _⟩ => show b.val = win0_2.index t (1 : Fin 3) * 1 + 1 * b.val; omega
    | ⟨2, _⟩ => show l.val = win0_2.index t (2 : Fin 3) * 128 + 1 * l.val; omega

/-- An index of the second output is in point `t`'s block iff each coordinate is in the block's range on its axis. -/
theorem mem_blk2 (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_call0_v1_1).slice (win0_2.rect t)).set ↔ _
  rw [View.set_slice_whole, Rect.mem_set_unit]
  exact Iff.rfl

/-- Row `g` of the second output is the block of point `g`. -/
theorem cover2 (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  have hN : cfg0.N = 16 := N_0
  obtain ⟨t, ht⟩ : ∃ t : Fin cfg0.N, t.val = (i 0).val := ⟨⟨(i 0).val, by rw [hN]; omega⟩, rfl⟩
  obtain ⟨-, -, -, -, e4, e5, e6⟩ := block_index t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

/-- The second output after the run: the partial sums over the input rows. -/
theorem final2 (c : Dev nD) : (dats m 0 c).arrAt 2 cfg0.N = partialRows (V m c main_call0_v0) :=
  (dats m 0 c).arrAt_eq_of_cover 2 _ (fun t _ => flushed2_eq m c t) cover2

end Cert.KernelIdeal.Arrays

end
-- ==== Proof.Results.lean ====
/-
  The kernel program's two results, as functions of its argument array.

  Before the grid runs, the host re-lays the flat argument of 16777216 numbers as 131072 rows of 128 (same elements,
  row-major).  After it, the host re-lays the first output back to a flat array — so the first result is the logistic
  function of every entry of the argument, the two re-layings cancelling — and adds up the 16 × 1 × 128 array of
  partial sums, starting from zero: the sum of all partial sums is the sum over the whole array of the squared
  logistic function, whatever the grouping, because addition of extended reals is commutative and associative.
-/
import proofs.«138000_j57947698757715_2_alg».proof.Proof.Gen.KernelIdeal.Frame
import proofs.«138000_j57947698757715_2_alg».proof.Proof.Arrays
import Idealize.ShloMosaic.Lib.StableHlo.Run
import Idealize.ShloMosaic.PureOps.Ideal.Laws

noncomputable section

open scoped BigOperators

namespace Cert.KernelIdeal.Results

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The input rows as the grid finds them: the flat argument re-laid as 131072 rows of 128. -/
theorem rows_eq (c : Dev nD) :
    (V m c main_call0_v0 : S131072x128.Idx → Elt Ideal .f32)
      = shapeCast S131072x128 (m ((c : Thread nD τ).loc main_arg0) : S16777216.Idx → Elt Ideal .f32) shapeCasts_S16777216_S131072x128 := by
  show StableHlo.after hostOps0 (fun b => m (c, b)) (Proc.devRef .tc main_call0_v0) = _
  after_results
  rfl

/-- What the host operations after the grid find in the first output's array … -/
theorem found1 (c : Dev nD) :
    Pipeline.withArrays (cfgs 0).spec c (V0 m c) (fun w => (dats m 0 c).arrAt w (cfgs 0).N) (Proc.devRef .tc main_call0_v1_0)
      = (dats m 0 c).arrAt 1 cfg0.N :=
  Pipeline.withArrays_arr spec0 launch0.win.arr_inj c _ _ 1

/-- … and in the second's: what the grid left there. -/
theorem found2 (c : Dev nD) :
    Pipeline.withArrays (cfgs 0).spec c (V0 m c) (fun w => (dats m 0 c).arrAt w (cfgs 0).N) (Proc.devRef .tc main_call0_v1_1)
      = (dats m 0 c).arrAt 2 cfg0.N :=
  Pipeline.withArrays_arr spec0 launch0.win.arr_inj c _ _ 2

/-- The first result is the first output re-laid flat. -/
theorem tail1 (c : Dev nD) :
    Pipeline.afterTail₀ cfgs (dats m) 0 (V0 m) [hostOps1] c main_v0_0
      = shapeCast S16777216 ((dats m 0 c).arrAt 1 cfg0.N : S131072x128.Idx → Elt Ideal .f32) shapeCasts_S131072x128_S16777216 := by
  unfold Pipeline.afterTail₀
  show StableHlo.after hostOps1 _ (Proc.devRef .tc main_v0_0) = _
  after_results
  exact congrArg (fun A : S131072x128.Idx → Elt Ideal .f32 => shapeCast S16777216 A shapeCasts_S131072x128_S16777216) (found1 m c)

/-- The second result is the host's sum of the second output, from zero. -/
theorem tail2 (c : Dev nD) :
    Pipeline.afterTail₀ cfgs (dats m) 0 (V0 m) [hostOps1] c main_v0_1
      = Host.reduceAdd (F := Ideal) ((dats m 0 c).arrAt 2 cfg0.N : S16x1x128.Idx → Elt Ideal .f32)
          (constant (F := Ideal) S_ .f32 0x00000000#32) reducesTo_S16x1x128_S_d0_1_2 h_S_ := by
  unfold Pipeline.afterTail₀
  show StableHlo.after hostOps1 _ (Proc.devRef .tc main_v0_1) = _
  after_results
  exact congrArg (fun A : S16x1x128.Idx → Elt Ideal .f32 => Host.reduceAdd (F := Ideal) A
    (constant (F := Ideal) S_ .f32 0x00000000#32) reducesTo_S16x1x128_S_d0_1_2 h_S_) (found2 m c)

/-- The host's sum of a 16 × 1 × 128 array over all three axes, from zero, is the sum of all its entries. -/
theorem total_sum (y : S16x1x128.Idx → Elt Ideal .f32) (i : S_.Idx) :
    Host.reduceAdd (F := Ideal) y (constant (F := Ideal) S_ .f32 0x00000000#32) reducesTo_S16x1x128_S_d0_1_2 h_S_ i
      = ∑ q, y q := by
  simp only [Host.reduceAdd, Ideal.hostReduceAdd_def]
  refine (Ideal.hostReduceAdd_total reducesTo_S16x1x128_S_d0_1_2 (fun b => b.elim0) y _ i).trans ?_
  show Ideal.ofBits .f32 0x00000000#32 + _ = _
  rw [Ideal.ofBits_zero_f32, zero_add]

/-- THE FIRST RESULT: the logistic function of every entry of the argument. -/
theorem result1 (c : Dev nD) :
    Pipeline.afterTail₀ cfgs (dats m) 0 (V0 m) [hostOps1] c main_v0_0
      = Cert.Qubo.decisions (m ((c : Thread nD τ).loc main_arg0)) := by
  rw [tail1, Arrays.final1, rows_eq]
  exact Cert.Qubo.shapeCast_map_shapeCast Ideal.logistic _ _ _

/-- THE SECOND RESULT: the sum over the whole argument of the squared logistic function. -/
theorem result2 (c : Dev nD) :
    Pipeline.afterTail₀ cfgs (dats m) 0 (V0 m) [hostOps1] c main_v0_1
      = Cert.Qubo.loss (m ((c : Thread nD τ).loc main_arg0)) := by
  rw [tail2, Arrays.final2, rows_eq]
  funext i
  rw [total_sum]
  exact Cert.Qubo.loss_blocked _ _

/-- The program's run with both results named: every weakly fair execution terminates with the first result at the
    logistic function of the argument, the second at the sum of its squares, and the arguments unchanged. -/
theorem run : θ_run defs (onTc (τ := τ) (main (F := Ideal))) ⟨m, fun _ => 0, ρ⟩ fun r => ∀ c : Dev nD,
      r.2.mem ((c.tc : Thread nD τ).loc main_v0_0) = Cert.Qubo.decisions (m ((c.tc : Thread nD τ).loc main_arg0))
      ∧ r.2.mem ((c.tc : Thread nD τ).loc main_v0_1) = Cert.Qubo.loss (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0_0 (Pipeline.mem_restRefs_of main_v0_0 (by decide) (by decide))).trans (result1 m c),
     ((h c).2 main_v0_1 (Pipeline.mem_restRefs_of main_v0_1 (by decide) (by decide))).trans (result2 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Results

end
-- ==== Proof.RefValue.lean ====
/-
  The reference's two results are the specification's.

  The reference computes `1 / (1 + e^(-x))` entry by entry with the host's negation, exponential, addition and
  division, the two ones being the number one; on the extended reals this expression IS the logistic function (at
  `-∞` it reads `1 / ∞ = 0`, at `+∞` it reads `1 / 1`).  Its second result is zero plus the sum over the whole array
  of the squares.
-/
import proofs.«138000_j57947698757715_2_alg».proof.Proof.Gen.ReferenceIdeal.Read
import proofs.«138000_j57947698757715_2_alg».proof.Proof.Regroup
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic

/-- The word `0x3F800000` is the number one. -/
theorem one_f32 : Ideal.ofBits .f32 0x3F800000#32 = 1 := IdealRules.sign_bit.ideal_onePat .f32

/-- The reference's first result: the logistic function of every entry. -/
theorem decisions_eq (x : (⟨S16777216, .f32⟩ : BufTy).Contents (Elt Ideal)) :
    val_main_v5 (F := Ideal) x = Cert.Qubo.decisions x := by
  funext i
  rw [val_main_v5_apply, val_main_v4_apply, val_main_cst_0_apply, val_main_v3_apply, val_main_v2_apply,
    val_main_cst_apply, val_main_v1_apply, val_main_v0_apply]
  show Ideal.div (Ideal.ofBits .f32 0x3F800000#32) (Ideal.ofBits .f32 0x3F800000#32 + Ideal.exp (-(x i)))
    = Ideal.div 1 (1 + Ideal.exp (-(x i)))
  rw [one_f32]

/-- The reference's second result: the sum over the whole array of the squared logistic function. -/
theorem loss_eq (x : (⟨S16777216, .f32⟩ : BufTy).Contents (Elt Ideal)) :
    val_main_v7 (F := Ideal) x = Cert.Qubo.loss x := by
  funext i
  rw [val_main_v7_apply, val_main_cst_1_apply]
  show Ideal.ofBits .f32 0x00000000#32 + ∑ j : S16777216.Idx, val_main_v6 (F := Ideal) x j = ∑ j, Cert.Qubo.sqLogistic (x j)
  rw [Ideal.ofBits_zero_f32, zero_add]
  refine Finset.sum_congr rfl fun j _ => ?_
  rw [val_main_v6_apply, decisions_eq]
  rfl

end Cert.ReferenceIdeal.RefValue

end
-- ==== Proof.lean ====
/-
  Two programs compute, from an array `x` of 16777216 finite numbers, the array `σ(x)` of its logistic values
  `σ(t) = 1 / (1 + e^(-t))` and the scalar `Σ σ(x_j)²`.  They are equal as functions on the extended reals.

  The first result.  The kernel applies the logistic function to each 8192 × 128 block of the array viewed as
  131072 rows of 128; the blocks of its 16 grid points tile the rows, and the view as rows and back moves no element.
  The reference spells `1 / (1 + e^(-t))` out in negation, exponential, addition and division, which on the extended
  reals is the logistic function by definition, limits included.

  The second result.  The kernel adds `σ²` down the 8192 rows of each block, one partial sum per block and column,
  and the host adds the 16 × 128 partial sums; the reference adds all 16777216 squares at once.  Sums of extended
  reals do not depend on grouping or order (addition is commutative and associative, and no cancellation is used),
  so the two totals agree; finiteness of the input plays no part.

  The kernel's idealization rewrote nothing, so there is nothing to preserve beyond the text itself.
  Modules: Regroup (the sums and the specification), Payload (the stored values at an index), Arrays (the two
  output arrays after the grid), Results (the kernel program's results), RefValue (the reference's results).
-/
import proofs.«138000_j57947698757715_2_alg».proof.Defs
import proofs.«138000_j57947698757715_2_alg».proof.Proof.Gen.Kernel
import proofs.«138000_j57947698757715_2_alg».proof.Proof.Gen.Kernel.Skeleton
import proofs.«138000_j57947698757715_2_alg».proof.Proof.Gen.Kernel.Launch
import proofs.«138000_j57947698757715_2_alg».proof.Proof.Gen.Kernel.Points
import proofs.«138000_j57947698757715_2_alg».proof.Proof.Gen.Kernel.Frame
import proofs.«138000_j57947698757715_2_alg».proof.Proof.Gen.KernelIdeal
import proofs.«138000_j57947698757715_2_alg».proof.Proof.Gen.KernelIdeal.Skeleton
import proofs.«138000_j57947698757715_2_alg».proof.Proof.Gen.KernelIdeal.Launch
import proofs.«138000_j57947698757715_2_alg».proof.Proof.Gen.KernelIdeal.Points
import proofs.«138000_j57947698757715_2_alg».proof.Proof.Gen.KernelIdeal.Frame
import proofs.«138000_j57947698757715_2_alg».proof.Proof.Gen.ReferenceIdeal
import proofs.«138000_j57947698757715_2_alg».proof.Proof.Gen.ReferenceIdeal.Run
import proofs.«138000_j57947698757715_2_alg».proof.Proof.Gen.ReferenceIdeal.Read
import proofs.«138000_j57947698757715_2_alg».proof.Proof.Gen.Pre_finite_inputs
import proofs.«138000_j57947698757715_2_alg».proof.Proof.Results
import proofs.«138000_j57947698757715_2_alg».proof.Proof.RefValue
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From arguments that agree, both programs end with the logistic values of the argument and the sum of their
    squares: the kernel program by its blocks and partial sums, the reference directly. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v5_eq, Cert.ReferenceIdeal.RefValue.decisions_eq, (hagree c).1]
  · rw [(h c).2.1, Cert.ReferenceIdeal.Read.val_main_v7_eq, Cert.ReferenceIdeal.RefValue.loss_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
